-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S_ : Shape := ⟨0, ![]⟩

class Facts : Prop where
  bcast_S_S64x256x64 : S_.BroadcastsInDim S64x256x64 (![] : Fin 0 → Fin S64x256x64.rank)
  reducesTo_S64x256x64_S_d0_1_2 : S64x256x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S64x256x64 .f32) (main_arg1 : FVec F S128x64 .f32) (main_arg2 : FVec F S1x128 .f32) (main_arg3 : FVec F S1 .f32) : IVec S_ 1 :=
  let main_v0 : FVec F S64x256x64 .f32 := Host.absf main_arg0
  let main_cst : FVec F S_ .f32 := constant S_ .f32 0x7F800000#32
  let main_v1 : FVec F S64x256x64 .f32 := broadcastInDim S64x256x64 ![] bcast_S_S64x256x64 main_cst
  let main_v2 : IVec S64x256x64 1 := cmpf .olt main_v0 main_v1
  let main_c : IVec S_ 1 := constantI S_ 1 1#1
  let main_v3 : IVec S_ 1 := (fun x v => Host.reduce IntOp.andi x v reducesTo_S64x256x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S64x1 : Shape := ⟨2, ![64, 1]⟩
abbrev S16x256x64 : Shape := ⟨3, ![16, 256, 64]⟩
abbrev S16x1 : Shape := ⟨2, ![16, 1]⟩
abbrev S128 : Shape := ⟨1, ![128]⟩
abbrev S16x128 : Shape := ⟨2, ![16, 128]⟩
abbrev S16x64x64 : Shape := ⟨3, ![16, 64, 64]⟩
abbrev S1024x64 : Shape := ⟨2, ![1024, 64]⟩
abbrev S64x128 : Shape := ⟨2, ![64, 128]⟩
abbrev S1024x128 : Shape := ⟨2, ![1024, 128]⟩
abbrev S16x64x128 : Shape := ⟨3, ![16, 64, 128]⟩
abbrev S16x64 : Shape := ⟨2, ![16, 64]⟩
abbrev S16x64x1 : Shape := ⟨3, ![16, 64, 1]⟩
abbrev S1x1x128 : Shape := ⟨3, ![1, 1, 128]⟩
abbrev S16 : Shape := ⟨1, ![16]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S64x256x64, .f32⟩
  | .hbm, ⟨1, _⟩ => ⟨S128x64, .f32⟩
  | .hbm, ⟨2, _⟩ => ⟨S1x128, .f32⟩
  | .hbm, ⟨3, _⟩ => ⟨S1, .f32⟩
  | .hbm, ⟨4, _⟩ => ⟨S64x1, .f32⟩
  | .local _ .vmem, ⟨0, _⟩ => ⟨S16x256x64, .f32⟩
  | .local _ .vmem, ⟨1, _⟩ => ⟨S16x256x64, .f32⟩
  | .local _ .vmem, ⟨2, _⟩ => ⟨S128x64, .f32⟩
  | .local _ .vmem, ⟨3, _⟩ => ⟨S1x128, .f32⟩
  | .local _ .vmem, ⟨4, _⟩ => ⟨S1, .f32⟩
  | .local _ .vmem, ⟨5, _⟩ => ⟨S16x1, .f32⟩
  | .local _ .vmem, ⟨6, _⟩ => ⟨S16x1, .f32⟩
  | _, _ => ⟨S64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  let c64_i32 : BitVec 32 := 64#32
  let v5 : BitVec 32 := Scalar.muli c0_i32 c64_i32
  v5
def k0_off1 (c0_i32 : BitVec 32) : Fin 3 → Nat :=
  let c0_2 : Index := 0#32
  let c64_i32 : BitVec 32 := 64#32
  let v5 : BitVec 32 := Scalar.muli c0_i32 c64_i32
  let v6 : BitVec 32 := v5
  let v7 : Index := Scalar.indexCast v6
  let c0_3 : Index := 0#32
  ![0, v7.toNat, 0]
def k0_mult2 : BitVec 32 :=
  let c1_i32 : BitVec 32 := 1#32
  let c64_i32_8 : BitVec 32 := 64#32
  let v26 : BitVec 32 := Scalar.muli c1_i32 c64_i32_8
  v26
def k0_mult3 : BitVec 32 :=
  let c2_i32 : BitVec 32 := 2#32
  let c64_i32_15 : BitVec 32 := 64#32
  let v47 : BitVec 32 := Scalar.muli c2_i32 c64_i32_15
  v47
def k0_mult4 : BitVec 32 :=
  let c3_i32 : BitVec 32 := 3#32
  let c64_i32_22 : BitVec 32 := 64#32
  let v68 : BitVec 32 := Scalar.muli c3_i32 c64_i32_22
  v68
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  reduces_S128x64_S128 : S128x64.Reduces [1] S128
  h_S16x64x64 : 0 < S16x64x64.numel
  shapeCasts_S16x64x64_S1024x64 : S16x64x64.ShapeCasts S1024x64
  transposes_S128x64_p1_0_S64x128 : S128x64.Transposes [1, 0] S64x128
  shapeCasts_S1024x128_S16x64x128 : S1024x128.ShapeCasts S16x64x128
  reduces_S16x64x64_S16x64 : S16x64x64.Reduces [2] S16x64
  shapeCasts_S16x64_S16x64x1 : S16x64.ShapeCasts S16x64x1
  shapeCasts_S128_S1x1x128 : S128.ShapeCasts S1x1x128
  broadcasts_S16x64x1_S16x64x128 : S16x64x1.Broadcasts S16x64x128
  broadcasts_S1x1x128_S16x64x128 : S1x1x128.Broadcasts S16x64x128
  reduces_S16x64x128_S16x128 : S16x64x128.Reduces [1] S16x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  broadcasts_S1x128_S16x128 : S1x128.Broadcasts S16x128
  reduces_S16x128_S16 : S16x128.Reduces [1] S16
  shapeCasts_S16_S16x1 : S16.ShapeCasts S16x1
  shapeCasts_S1_S1x1 : S1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  dot_S1024x64_S64x128_S1024x128_1_0_0_1_n_n_wf : DotDims.WF S1024x64 S64x128 S1024x128 [1] [0] [0] [1] [] []
  hrank0 : 0 < grid0.rank
  k0_mult1_dvd : 64 ∣ k0_mult1.toNat
  k0_off1_inb : ∀ (r : Fin 4), ∀ a, (k0_off1 (BitVec.ofNat 32 r.val)) a + S16x64x64.size a ≤ S16x256x64.size a
  k0_mult2_dvd : 64 ∣ k0_mult2.toNat
  k0_mult3_dvd : 64 ∣ k0_mult3.toNat
  k0_mult4_dvd : 64 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S64x256x64.size a
  hwx0_0 : ∀ i : grid0.Coords, EltTy.bits .f32 = 32 ∨ (Rect.block (s := S64x256x64) S16x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S64x1.size a
  hwx0_4 : ∀ i : grid0.Coords, EltTy.bits .f32 = 32 ∨ (Rect.block (s := S64x1) S16x1.size (cc0_transform_4 i) (hinb0_4 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf

abbrev win0_0 : Pipeline.Window sig grid0 :=
  Pipeline.Window.ofSpec (Memref.whole main_arg0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S64x256x1x64 : Shape := ⟨4, ![64, 256, 1, 64]⟩
abbrev S1x1x128x64 : Shape := ⟨4, ![1, 1, 128, 64]⟩
abbrev S64x256x128x64 : Shape := ⟨4, ![64, 256, 128, 64]⟩
abbrev S_ : Shape := ⟨0, ![]⟩
abbrev S64x256x128 : Shape := ⟨3, ![64, 256, 128]⟩
abbrev S64x128 : Shape := ⟨2, ![64, 128]⟩
abbrev S128x1 : Shape := ⟨2, ![128, 1]⟩
abbrev S64x1 : Shape := ⟨2, ![64, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x256x64, .f32⟩
  | .hbm, ⟨1, _⟩ => ⟨S128x64, .f32⟩
  | .hbm, ⟨2, _⟩ => ⟨S1x128, .f32⟩
  | .hbm, ⟨3, _⟩ => ⟨S1, .f32⟩
  | .hbm, ⟨4, _⟩ => ⟨S64x256x1x64, .f32⟩
  | .hbm, ⟨5, _⟩ => ⟨S1x1x128x64, .f32⟩
  | .hbm, ⟨6, _⟩ => ⟨S64x256x128x64, .f32⟩
  | .hbm, ⟨7, _⟩ => ⟨S64x256x128x64, .f32⟩
  | .hbm, ⟨8, _⟩ => ⟨S64x256x128x64, .f32⟩
  | .hbm, ⟨9, _⟩ => ⟨S64x256x128x64, .f32⟩
  | .hbm, ⟨10, _⟩ => ⟨S_, .f32⟩
  | .hbm, ⟨11, _⟩ => ⟨S64x256x128, .f32⟩
  | .hbm, ⟨12, _⟩ => ⟨S64x256x128, .f32⟩
  | .hbm, ⟨13, _⟩ => ⟨S_, .f32⟩
  | .hbm, ⟨14, _⟩ => ⟨S64x128, .f32⟩
  | .hbm, ⟨15, _⟩ => ⟨S128x1, .f32⟩
  | .hbm, ⟨16, _⟩ => ⟨S64x1, .f32⟩
  | .hbm, ⟨17, _⟩ => ⟨S1x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S_, .f32⟩
  | .hbm, ⟨26, _⟩ => ⟨S64x1, .f32⟩
  | .hbm, ⟨27, _⟩ => ⟨S64x1, .f32⟩
  | _, _ => ⟨S64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S64x256x64_S64x256x1x64_0_1_3 : S64x256x64.BroadcastsInDim S64x256x1x64 (![0, 1, 3] : Fin 3 → Fin S64x256x1x64.rank)
  bcast_S128x64_S1x1x128x64_2_3 : S128x64.BroadcastsInDim S1x1x128x64 (![2, 3] : Fin 2 → Fin S1x1x128x64.rank)
  bcast_S64x256x1x64_S64x256x128x64_0_1_2_3 : S64x256x1x64.BroadcastsInDim S64x256x128x64 (![0, 1, 2, 3] : Fin 4 → Fin S64x256x128x64.rank)
  bcast_S1x1x128x64_S64x256x128x64_0_1_2_3 : S1x1x128x64.BroadcastsInDim S64x256x128x64 (![0, 1, 2, 3] : Fin 4 → Fin S64x256x128x64.rank)
  reducesTo_S64x256x128x64_S64x256x128_d3 : S64x256x128x64.ReducesTo [3] S64x256x128
  h_S_ : 0 < S_.numel
  reducesTo_S64x256x128_S64x128_d1 : S64x256x128.ReducesTo [1] S64x128
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x128_S128x1_S64x1_1_0_0_1_n_n_wf : DotDims.WF S64x128 S128x1 S64x1 [1] [0] [0] [1] [] []

variable [Facts₀]

def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Layout.lean ====
/-
  Layout operations and one-axis reductions of the shapes this kernel meets, each read at an index written by
  coordinates.

  A chunk of 16 × 64 windows of length 64 is flattened to 1024 rows for the matrix product and the product
  unflattened again: row `64 r + w` of the flat form is window `(r, w)`.  The squared norms of the windows
  (a `[16, 64]` array) and of the shapelets (a `[128]` vector) are spread over `[16, 64, 128]` along a unit
  axis.  A sum or a minimum over one axis of an array reads, at the reduced index, the entries with that axis's
  coordinate put back.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Shapelet.Layout

variable {α : Type}

/-- The flat row of window `w` of sample `r` in a chunk of 16 × 64 windows. -/
def flatRow (r : Fin 16) (w : Fin 64) : Fin 1024 := ⟨64 * r.val + w.val, by have := r.isLt; have := w.isLt; omega⟩

/-- The chunk flattened to `[1024, 64]` reads, in flat row `64 r + w`, window `(r, w)`. -/
theorem flatten_apply (x : (⟨3, ![16, 64, 64]⟩ : Shape).Idx → α)
    (h : (⟨3, ![16, 64, 64]⟩ : Shape).ShapeCasts ⟨2, ![1024, 64]⟩) (r : Fin 16) (w : Fin 64) (l : Fin 64) :
    shapeCast ⟨2, ![1024, 64]⟩ x h (ix2 (flatRow r w) l) = x (ix3 r w l) :=
  shapeCast_apply x h _ _ (by
    rw [Shape.rowMajor_val_three, Shape.rowMajor_val_two]
    show (r.val * 64 + w.val) * 64 + l.val = (64 * r.val + w.val) * 64 + l.val
    omega)

/-- A `[1024, 128]` product unflattened to `[16, 64, 128]` reads, at `(r, w, n)`, flat row `64 r + w`. -/
theorem unflatten_apply (y : (⟨2, ![1024, 128]⟩ : Shape).Idx → α)
    (h : (⟨2, ![1024, 128]⟩ : Shape).ShapeCasts ⟨3, ![16, 64, 128]⟩) (r : Fin 16) (w : Fin 64) (n : Fin 128) :
    shapeCast ⟨3, ![16, 64, 128]⟩ y h (ix3 r w n) = y (ix2 (flatRow r w) n) :=
  shapeCast_apply y h _ _ (by
    rw [Shape.rowMajor_val_three, Shape.rowMajor_val_two]
    show (64 * r.val + w.val) * 128 + n.val = (r.val * 64 + w.val) * 128 + n.val
    omega)

/-- A `[16, 64]` array given a trailing unit axis reads, at `(r, w, 0)`, its entry `(r, w)`. -/
theorem trailingUnit_apply (v : (⟨2, ![16, 64]⟩ : Shape).Idx → α)
    (h : (⟨2, ![16, 64]⟩ : Shape).ShapeCasts ⟨3, ![16, 64, 1]⟩) (r : Fin 16) (w : Fin 64) :
    shapeCast ⟨3, ![16, 64, 1]⟩ v h (ix3 r w (0 : Fin 1)) = v (ix2 r w) :=
  shapeCast_apply v h _ _ (by
    rw [Shape.rowMajor_val_three, Shape.rowMajor_val_two]
    show r.val * 64 + w.val = (r.val * 64 + w.val) * 1 + 0
    omega)

/-- … and spread along that axis to `[16, 64, 128]` it reads `(r, w, 0)` at every `(r, w, n)`. -/
theorem spreadLast_apply (v : (⟨3, ![16, 64, 1]⟩ : Shape).Idx → α)
    (h : (⟨3, ![16, 64, 1]⟩ : Shape).Broadcasts ⟨3, ![16, 64, 128]⟩) (r : Fin 16) (w : Fin 64) (n : Fin 128) :
    broadcastTo ⟨3, ![16, 64, 128]⟩ v h (ix3 r w n) = v (ix3 r w (0 : Fin 1)) :=
  broadcastTo_apply v h (ix3 r w n) (ix3 r w (0 : Fin 1)) (fun a => match a with
    | ⟨0, _⟩ => by show r.val = (if (16 : ℕ) = 1 then 0 else r.val); rw [if_neg (by decide)]
    | ⟨1, _⟩ => by show w.val = (if (64 : ℕ) = 1 then 0 else w.val); rw [if_neg (by decide)]
    | ⟨2, _⟩ => by show 0 = (if (1 : ℕ) = 1 then 0 else n.val); rw [if_pos rfl])

/-- A `[128]` vector given two leading unit axes reads, at `(0, 0, n)`, its entry `n`. -/
theorem leadingUnits_apply (v : (⟨1, ![128]⟩ : Shape).Idx → α)
    (h : (⟨1, ![128]⟩ : Shape).ShapeCasts ⟨3, ![1, 1, 128]⟩) (n : Fin 128) :
    shapeCast ⟨3, ![1, 1, 128]⟩ v h (ix3 (0 : Fin 1) (0 : Fin 1) n) = v (ix1 n) :=
  shapeCast_apply v h _ _ (by
    rw [Shape.rowMajor_val_three, Shape.rowMajor_val_one]
    show n.val = (0 * 1 + 0) * 128 + n.val
    omega)

/-- … and spread along those axes to `[16, 64, 128]` it reads `(0, 0, n)` at every `(r, w, n)`. -/
theorem spreadFirst_apply (v : (⟨3, ![1, 1, 128]⟩ : Shape).Idx → α)
    (h : (⟨3, ![1, 1, 128]⟩ : Shape).Broadcasts ⟨3, ![16, 64, 128]⟩) (r : Fin 16) (w : Fin 64) (n : Fin 128) :
    broadcastTo ⟨3, ![16, 64, 128]⟩ v h (ix3 r w n) = v (ix3 (0 : Fin 1) (0 : Fin 1) n) :=
  broadcastTo_apply v h (ix3 r w n) (ix3 (0 : Fin 1) (0 : Fin 1) n) (fun a => match a with
    | ⟨0, _⟩ => by show 0 = (if (1 : ℕ) = 1 then 0 else r.val); rw [if_pos rfl]
    | ⟨1, _⟩ => by show 0 = (if (1 : ℕ) = 1 then 0 else w.val); rw [if_pos rfl]
    | ⟨2, _⟩ => by show n.val = (if (128 : ℕ) = 1 then 0 else n.val); rw [if_neg (by decide)])

/-- A one-entry vector as a `[1, 1]` array. -/
theorem scalarCast_apply (v : (⟨1, ![1]⟩ : Shape).Idx → α) (h : (⟨1, ![1]⟩ : Shape).ShapeCasts ⟨2, ![1, 1]⟩) :
    shapeCast ⟨2, ![1, 1]⟩ v h (ix2 (0 : Fin 1) (0 : Fin 1)) = v (ix1 (0 : Fin 1)) :=
  shapeCast_apply v h _ _ (by
    rw [Shape.rowMajor_val_two, Shape.rowMajor_val_one]
    show 0 = 0 * 1 + 0
    omega)

/-- … spread down a column of 16. -/
theorem scalarSpread_apply (v : (⟨2, ![1, 1]⟩ : Shape).Idx → α) (h : (⟨2, ![1, 1]⟩ : Shape).Broadcasts ⟨2, ![16, 1]⟩)
    (r : Fin 16) : broadcastTo ⟨2, ![16, 1]⟩ v h (ix2 r (0 : Fin 1)) = v (ix2 (0 : Fin 1) (0 : Fin 1)) :=
  broadcastTo_apply v h (ix2 r (0 : Fin 1)) (ix2 (0 : Fin 1) (0 : Fin 1)) (fun a => match a with
    | ⟨0, _⟩ => by show 0 = (if (1 : ℕ) = 1 then 0 else r.val); rw [if_pos rfl]
    | ⟨1, _⟩ => by show 0 = (if (1 : ℕ) = 1 then 0 else 0); rw [if_pos rfl])

/-! ## One-axis reductions: the source index with the reduced coordinate put back -/

/-- Reducing the last axis of `[16, 64, 64]`: the sources of `(r, w)` are `(r, w, k)`. -/
theorem lift_last (h : (⟨3, ![16, 64, 64]⟩ : Shape).Reduces [2] (⟨2, ![16, 64]⟩ : Shape)) (r : Fin 16) (w : Fin 64)
    (k : Fin ((⟨3, ![16, 64, 64]⟩ : Shape).size 2)) : h.lift (ix2 r w) k = ix3 r w (⟨k.val, k.isLt⟩ : Fin 64) := by
  funext c; apply Fin.ext
  fin_cases c <;> rfl

/-- Reducing the middle axis of `[16, 64, 128]`: the sources of `(r, n)` are `(r, k, n)`. -/
theorem lift_mid (h : (⟨3, ![16, 64, 128]⟩ : Shape).Reduces [1] (⟨2, ![16, 128]⟩ : Shape)) (r : Fin 16) (n : Fin 128)
    (k : Fin ((⟨3, ![16, 64, 128]⟩ : Shape).size 1)) : h.lift (ix2 r n) k = ix3 r (⟨k.val, k.isLt⟩ : Fin 64) n := by
  funext c; apply Fin.ext
  fin_cases c <;> rfl

/-- Reducing the second axis of an `[m, n]` array: the sources of row `r` are `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The sum over the last axis of a `[16, 64, 64]` array, at `(r, w)`. -/
theorem sumLast_apply (src : FVec Ideal (⟨3, ![16, 64, 64]⟩ : Shape) .f32) (acc : BitVec 32)
    (h : (⟨3, ![16, 64, 64]⟩ : Shape).Reduces [2] (⟨2, ![16, 64]⟩ : Shape)) (hφ : FKind.Formats .f32)
    (hacc : acc = FKind.add.neutral .f32 hφ) (r : Fin 16) (w : Fin 64) :
    multiReduction .add [2] (⟨2, ![16, 64]⟩ : Shape) src acc h hφ hacc (ix2 r w) = ∑ l : Fin 64, src (ix3 r w l) := by
  rw [Ideal.multiReduction_add_single src acc h hφ hacc (ix2 r w)]
  exact Finset.sum_congr rfl fun k _ => congrArg src (lift_last h r w k)

/-- The sum over the second axis of an `[m, n]` array, at row `r`. -/
theorem sumRow_apply {m n : ℕ} (src : FVec Ideal (⟨2, ![m, n]⟩ : Shape) .f32) (acc : BitVec 32)
    (h : (⟨2, ![m, n]⟩ : Shape).Reduces [1] (⟨1, ![m]⟩ : Shape)) (hφ : FKind.Formats .f32)
    (hacc : acc = FKind.add.neutral .f32 hφ) (r : Fin m) :
    multiReduction .add [1] (⟨1, ![m]⟩ : Shape) src acc h hφ hacc (ix1 r) = ∑ k : Fin n, src (ix2 r k) := by
  rw [Ideal.multiReduction_add_single src acc h hφ hacc (ix1 r)]
  exact Finset.sum_congr rfl fun k _ => congrArg src (lift_row h r k)

/-- The minimum over the middle axis of a `[16, 64, 128]` array, at `(r, n)`: the fold of `min` from the
    accumulator's value over the 64 entries `(r, w, n)`. -/
theorem minMid_apply (src : FVec Ideal (⟨3, ![16, 64, 128]⟩ : Shape) .f32) (acc : BitVec 32)
    (h : (⟨3, ![16, 64, 128]⟩ : Shape).Reduces [1] (⟨2, ![16, 128]⟩ : Shape)) (hφ : FKind.Formats .f32)
    (hacc : acc = FKind.minimumf.neutral .f32 hφ) (r : Fin 16) (n : Fin 128) :
    multiReduction .minimumf [1] (⟨2, ![16, 128]⟩ : Shape) src acc h hφ hacc (ix2 r n)
      = (Finset.univ : Finset (Fin 64)).fold min (Ideal.ofBits .f32 acc) (fun w => src (ix3 r w n)) := by
  rw [multiReduction_minimumf_eq_fold, h.fold_filter_drop_single _ _ src (ix2 r n)]
  refine Finset.fold_congr fun k _ => ?_
  exact congrArg src (lift_mid h r n k)

end Cert.Shapelet.Layout

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Spec.lean ====
/-
  The mathematics that joins the two programs.

  For one sample (its 256 windows `x w`, each of length 64) and one shapelet `s` the kernel computes, window by
  window, the squared distance in its expanded form  ‖x w‖² + ‖s‖² − 2 ⟨x w, s⟩, takes the minimum of it over the
  windows in four runs of 64, clamps the minimum at zero and only then takes the square root; the reference computes
  ‖x w − s‖² as a sum of squared differences, takes the square root of each and then the minimum over all 256
  windows.  For finite inputs the two agree:

  * the expansion ‖x‖² + ‖s‖² − 2⟨x, s⟩ = ‖x − s‖² is an identity of real numbers (it needs finiteness: on the
    extended reals a difference of infinities is not cancelled);
  * a minimum taken run by run, each run started from the same value, is the minimum over all windows (`min` is
    associative, commutative and idempotent);
  * a sum of squares is non-negative, so clamping at zero changes nothing;
  * the square root is monotone on the extended reals, so it commutes with the minimum, and it fixes +∞.
-/
import Idealize.ShloMosaic.PureOps.Ideal
import Idealize.ShloMosaic.PureOps.Ideal.Laws
import Idealize.ShloMosaic.Lib.ValueIdx
import proofs.«141194_j65755949302130_2_alg».proof.Proof.LibERealSums

noncomputable section

open Idealize.ShloMosaic Idealize.ShloMosaic.ValueIdx Finset

namespace Cert.Shapelet.Spec

/-! ## The three float literals -/

/-- The literal `2.0`. -/
abbrev TWO : EReal := Ideal.ofBits .f32 0x40000000#32
/-- The literal `+inf`. -/
abbrev INF : EReal := Ideal.ofBits .f32 0x7F800000#32
/-- The literal `0.0`. -/
abbrev Z : EReal := Ideal.ofBits .f32 0x00000000#32

theorem two_eq : TWO = ((2 : ℝ) : EReal) := by
  simp [TWO, Ideal.ofBits, Ideal.ieee, -EReal.coe_mul]; norm_num

theorem inf_eq : INF = ⊤ := by simp [INF, Ideal.ofBits, Ideal.ieee]

theorem z_eq : Z = 0 := Ideal.ofBits_zero_f32

/-! ## Window `64 j + w'` of run `j` -/

/-- Window `w'` of run `j`: the runs are consecutive stretches of 64 windows. -/
def runWin (j : Fin 4) (w' : Fin 64) : Fin 256 := ⟨64 * j.val + w'.val, by have := j.isLt; have := w'.isLt; omega⟩

/-! ## The two forms of the squared distance -/

/-- The kernel's form: ‖x w‖² + ‖s‖² − 2 ⟨x w, s⟩. -/
def expandedDist (x : Fin 256 → Fin 64 → EReal) (s : Fin 64 → EReal) (w : Fin 256) : EReal :=
  ((∑ l, x w l * x w l) + ∑ l, s l * s l) - TWO * ∑ l, x w l * s l

/-- The reference's form: the sum of the squared differences. -/
def sqDist (x : Fin 256 → Fin 64 → EReal) (s : Fin 64 → EReal) (w : Fin 256) : EReal :=
  ∑ l, (x w l - s l) * (x w l - s l)

/-- The kernel's running minimum of its distances: four runs of 64 windows, each run's minimum folded from +∞ and
    joined to the minimum so far, which starts at +∞. -/
def runMin (x : Fin 256 → Fin 64 → EReal) (s : Fin 64 → EReal) : EReal :=
  min (min (min (min INF
    ((univ : Finset (Fin 64)).fold min INF fun w' => expandedDist x s (runWin 0 w')))
    ((univ : Finset (Fin 64)).fold min INF fun w' => expandedDist x s (runWin 1 w')))
    ((univ : Finset (Fin 64)).fold min INF fun w' => expandedDist x s (runWin 2 w')))
    ((univ : Finset (Fin 64)).fold min INF fun w' => expandedDist x s (runWin 3 w'))

/-- The distance from a sample to a shapelet: the least, over the windows, of the Euclidean distances. -/
def minDist (x : Fin 256 → Fin 64 → EReal) (s : Fin 64 → EReal) : EReal :=
  (univ : Finset (Fin 256)).fold min ⊤ fun w => Ideal.sqrt (sqDist x s w)

/-! ## The laws -/

/-- ‖x‖² + ‖s‖² − 2⟨x, s⟩ = ‖x − s‖² for real vectors, read in the extended reals. -/
theorem expand_sq {ι : Type*} [Fintype ι] (x s : ι → ℝ) :
    ((∑ l, (x l : EReal) * (x l : EReal)) + ∑ l, (s l : EReal) * (s l : EReal))
        - ((2 : ℝ) : EReal) * ∑ l, (x l : EReal) * (s l : EReal)
      = ∑ l, ((x l : EReal) - (s l : EReal)) * ((x l : EReal) - (s l : EReal)) := by
  have hA : ∑ l, (x l : EReal) * (x l : EReal) = ((∑ l, x l * x l : ℝ) : EReal) :=
    Cert.LibERealSums.sum_eq_coe univ _ _ fun l _ => (EReal.coe_mul _ _).symm
  have hB : ∑ l, (s l : EReal) * (s l : EReal) = ((∑ l, s l * s l : ℝ) : EReal) :=
    Cert.LibERealSums.sum_eq_coe univ _ _ fun l _ => (EReal.coe_mul _ _).symm
  have hC : ∑ l, (x l : EReal) * (s l : EReal) = ((∑ l, x l * s l : ℝ) : EReal) :=
    Cert.LibERealSums.sum_eq_coe univ _ _ fun l _ => (EReal.coe_mul _ _).symm
  have hD : ∑ l, ((x l : EReal) - (s l : EReal)) * ((x l : EReal) - (s l : EReal))
      = ((∑ l, (x l - s l) * (x l - s l) : ℝ) : EReal) :=
    Cert.LibERealSums.sum_eq_coe univ _ _ fun l _ => by rw [← EReal.coe_sub, ← EReal.coe_mul]
  rw [hA, hB, hC, hD, ← EReal.coe_add, ← EReal.coe_mul, ← EReal.coe_sub]
  congr 1
  simp only [Finset.mul_sum, ← Finset.sum_add_distrib, ← Finset.sum_sub_distrib]
  exact Finset.sum_congr rfl fun l _ => by ring

/-- A sum of squares of reals, read in the extended reals, is a non-negative real. -/
theorem sqDist_coe (x : Fin 256 → Fin 64 → ℝ) (s : Fin 64 → ℝ) (w : Fin 256) :
    sqDist (fun w l => (x w l : EReal)) (fun l => (s l : EReal)) w = ((∑ l, (x w l - s l) * (x w l - s l) : ℝ) : EReal) :=
  Cert.LibERealSums.sum_eq_coe univ _ _ fun l _ => by rw [← EReal.coe_sub, ← EReal.coe_mul]

theorem sqDist_nonneg (x : Fin 256 → Fin 64 → ℝ) (s : Fin 64 → ℝ) (w : Fin 256) :
    0 ≤ sqDist (fun w l => (x w l : EReal)) (fun l => (s l : EReal)) w := by
  rw [sqDist_coe]
  exact EReal.coe_nonneg.mpr (Finset.sum_nonneg fun l _ => mul_self_nonneg _)

/-- On finite inputs the kernel's expanded distance is the reference's. -/
theorem expandedDist_eq (x : Fin 256 → Fin 64 → ℝ) (s : Fin 64 → ℝ) (w : Fin 256) :
    expandedDist (fun w l => (x w l : EReal)) (fun l => (s l : EReal)) w
      = sqDist (fun w l => (x w l : EReal)) (fun l => (s l : EReal)) w := by
  unfold expandedDist sqDist
  rw [two_eq]
  exact expand_sq (x w) s

/-- A minimum taken over four runs of 64, every run and the running minimum started from the same value, is the
    minimum over all 256. -/
theorem min_runs (init : EReal) (f : Fin 256 → EReal) :
    min (min (min (min init
      ((univ : Finset (Fin 64)).fold min init fun w' => f (runWin 0 w')))
      ((univ : Finset (Fin 64)).fold min init fun w' => f (runWin 1 w')))
      ((univ : Finset (Fin 64)).fold min init fun w' => f (runWin 2 w')))
      ((univ : Finset (Fin 64)).fold min init fun w' => f (runWin 3 w'))
      = (univ : Finset (Fin 256)).fold min init f := by
  refine eq_of_forall_le_iff fun c => ?_
  simp only [le_min_iff, Finset.le_fold_min, Finset.mem_univ, forall_true_left]
  constructor
  · rintro ⟨⟨⟨⟨h0, -, g0⟩, -, g1⟩, -, g2⟩, -, g3⟩
    refine ⟨h0, fun w => ?_⟩
    have hw := w.isLt
    have key : ∀ (j : Fin 4) (w' : Fin 64), c ≤ f (runWin j w') := fun j => match j with
      | ⟨0, _⟩ => g0 | ⟨1, _⟩ => g1 | ⟨2, _⟩ => g2 | ⟨3, _⟩ => g3
    have e : w = runWin ⟨w.val / 64, by omega⟩ ⟨w.val % 64, Nat.mod_lt _ (by decide)⟩ :=
      Fin.ext (by show w.val = 64 * (w.val / 64) + w.val % 64; omega)
    rw [e]; exact key _ _
  · rintro ⟨h0, g⟩
    exact ⟨⟨⟨⟨h0, h0, fun w' => g _⟩, h0, fun w' => g _⟩, h0, fun w' => g _⟩, h0, fun w' => g _⟩

/-- The square root is monotone on the extended reals. -/
theorem sqrt_mono : Monotone Ideal.sqrt := by
  intro x y h
  induction x using EReal.rec with
  | bot => exact bot_le
  | top => rw [top_le_iff.mp h]
  | coe a =>
    induction y using EReal.rec with
    | bot => exact absurd h (not_le.mpr (EReal.bot_lt_coe a))
    | top => exact le_top
    | coe b =>
      have hab : a ≤ b := EReal.coe_le_coe_iff.mp h
      rw [Ideal.sqrt_coe, Ideal.sqrt_coe]
      split_ifs with ha hb hb
      · exact le_rfl
      · exact bot_le
      · exact absurd (lt_of_le_of_lt hab hb) ha
      · exact EReal.coe_le_coe_iff.mpr (Real.sqrt_le_sqrt hab)

/-- … so it commutes with a folded minimum. -/
theorem sqrt_fold_min {ι : Type*} (t : Finset ι) (init : EReal) (f : ι → EReal) :
    Ideal.sqrt (t.fold min init f) = t.fold min (Ideal.sqrt init) fun w => Ideal.sqrt (f w) :=
  (Finset.fold_hom (op := min) (op' := min) (m := Ideal.sqrt) fun x y => sqrt_mono.map_min).symm

/-- THE BRIDGE for one sample and one shapelet, both finite: the square root of the kernel's clamped running
    minimum of expanded distances is the least Euclidean distance. -/
theorem sqrt_runMin (x : Fin 256 → Fin 64 → EReal) (s : Fin 64 → EReal)
    (hx : ∀ w l, ∃ r : ℝ, x w l = (r : EReal)) (hs : ∀ l, ∃ r : ℝ, s l = (r : EReal)) :
    Ideal.sqrt (max (runMin x s) Z) = minDist x s := by
  choose xr hxr using hx
  choose sr hsr using hs
  obtain rfl : x = fun w l => (xr w l : EReal) := funext fun w => funext fun l => hxr w l
  obtain rfl : s = fun l => (sr l : EReal) := funext hsr
  unfold runMin minDist
  rw [min_runs INF (expandedDist _ _), inf_eq, z_eq]
  simp only [expandedDist_eq]
  rw [max_eq_left ((Finset.le_fold_min _).mpr ⟨le_top, fun w _ => sqDist_nonneg xr sr w⟩), sqrt_fold_min,
    Ideal.sqrt_top]

theorem one_eq : Ideal.ofBits .f32 0x3F800000#32 = (1 : EReal) := by
  simp [Ideal.ofBits, Ideal.ieee, -EReal.coe_mul]; norm_num

/-! ## The specification -/

/-- THE RESULT both programs compute, as one function of the four argument arrays: for sample `b` the logistic of
    the classifier's weighted sum, over the 128 shapelets, of the sample's distance to each shapelet, plus the bias. -/
def G (X : (⟨3, ![64, 256, 64]⟩ : Shape).Idx → EReal) (S : (⟨2, ![128, 64]⟩ : Shape).Idx → EReal)
    (Wt : (⟨2, ![1, 128]⟩ : Shape).Idx → EReal) (Bv : (⟨1, ![1]⟩ : Shape).Idx → EReal) :
    (⟨2, ![64, 1]⟩ : Shape).Idx → EReal := fun i =>
  Ideal.logistic ((∑ n : Fin 128, minDist (fun w l => X (ix3 (i 0) w l)) (fun l => S (ix2 n l)) * Wt (ix2 (0 : Fin 1) n))
    + Bv (ix1 (0 : Fin 1)))

end Cert.Shapelet.Spec

end
-- ==== Proof.KernelOps.lean ====
/-
  The kernel's arithmetic, read entry by entry.

  Every value the kernel's body computes on its way to the stored block is read here at an index written by
  coordinates: the squared norms of a chunk's windows and of the shapelets, spread over `[16, 64, 128]`; the matrix
  product of the flattened chunk with the transposed shapelets, which at `(r, w, n)` is the inner product of window
  `(r, w)` with shapelet `n`; the minimum over a chunk's windows; and the tail (clamp at zero, square root, the
  classifier's weighted sum, bias, logistic).
-/
import proofs.«141194_j65755949302130_2_alg».proof.Proof.Gen.KernelIdeal.Skeleton
import proofs.«141194_j65755949302130_2_alg».proof.Proof.Layout
import proofs.«141194_j65755949302130_2_alg».proof.Proof.Spec
import Idealize.ShloMosaic.Lib.ValueLayout

noncomputable section

open Idealize.ShloMosaic Idealize.ShloMosaic.ValueIdx Finset
open Cert.KernelIdeal Cert.KernelIdeal.Gen Cert.Shapelet.Layout
open Cert.Shapelet.Spec (TWO INF Z)

namespace Cert.Shapelet.KernelOps

/-! ## The pieces -/

/-- The squared norms of a chunk's windows, spread along the shapelet axis: at `(r, w, n)` the squared norm of
    window `(r, w)`. -/
theorem windowNorm_apply (xc : FVec Ideal S16x64x64 .f32) (h : S16x64x64.Reduces [2] S16x64) (hφ : FKind.Formats .f32)
    (hacc : (0x00000000#32 : BitVec 32) = FKind.add.neutral .f32 hφ) (hc : S16x64.ShapeCasts S16x64x1)
    (hb : S16x64x1.Broadcasts S16x64x128) (r : Fin 16) (w : Fin 64) (n : Fin 128) :
    broadcastTo S16x64x128 (shapeCast S16x64x1 (multiReduction .add [2] S16x64 (mulf xc xc) 0x00000000#32 h hφ hacc) hc) hb
        (ix3 r w n) = ∑ l : Fin 64, xc (ix3 r w l) * xc (ix3 r w l) :=
  (spreadLast_apply _ hb r w n).trans ((trailingUnit_apply _ hc r w).trans (sumLast_apply (mulf xc xc) _ h hφ hacc r w))

/-- The shapelets' squared norms spread along the sample and window axes: at `(r, w, n)` entry `n`. -/
theorem shapeletNorm_apply (v3 : FVec Ideal S128 .f32) (hc : S128.ShapeCasts S1x1x128)
    (hb : S1x1x128.Broadcasts S16x64x128) (r : Fin 16) (w : Fin 64) (n : Fin 128) :
    broadcastTo S16x64x128 (shapeCast S1x1x128 v3 hc) hb (ix3 r w n) = v3 (ix1 n) :=
  (spreadFirst_apply _ hb r w n).trans (leadingUnits_apply v3 hc n)

theorem lhs_row (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide),
    dif_pos (show (0 : Fin S1024x64.rank) ∈ dot_S1024x64_S64x128_S1024x128_1_0_0_1_n_n.lhsNonContracting by decide)]
  rfl

theorem rhs_col (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide),
    dif_pos (show (1 : Fin S64x128.rank) ∈ dot_S1024x64_S64x128_S1024x128_1_0_0_1_n_n.rhsNonContracting by decide)]
  rfl

/-- The matrix product of the flattened chunk with the transposed shapelets, unflattened: at `(r, w, n)` the inner
    product of window `(r, w)` with shapelet `n` (a change of float format is the identity on the extended reals). -/
theorem innerProduct_apply (xc : FVec Ideal S16x64x64 .f32) (s1 : FVec Ideal S128x64 .bf16)
    (hflat : S16x64x64.ShapeCasts S1024x64) (hbits : FTy.bf16.bits < FTy.f32.bits)
    (htr : S128x64.Transposes [1, 0] S64x128) (hun : S1024x128.ShapeCasts S16x64x128) (r : Fin 16) (w : Fin 64) (n : Fin 128) :
    shapeCast S16x64x128 (matmul dot_S1024x64_S64x128_S1024x128_1_0_0_1_n_n none
        (truncf .bf16 (shapeCast S1024x64 xc hflat) hbits) (transpose S64x128 [1, 0] s1 htr)
        (constant S1024x128 .f32 0x00000000#32)) hun (ix3 r w n)
      = ∑ l : Fin 64, xc (ix3 r w l) * s1 (ix2 n l) := by
  refine (unflatten_apply _ hun r w n).trans ?_
  simp only [matmul]
  rw [Ideal.matmul_constant_zero_apply,
    ← Equiv.sum_comp (ValueIdx.contrEquiv1 dot_S1024x64_S64x128_S1024x128_1_0_0_1_n_n 64 rfl rfl).symm]
  refine Finset.sum_congr rfl fun k _ => ?_
  have hk := ValueIdx.contrEquiv1_symm_val dot_S1024x64_S64x128_S1024x128_1_0_0_1_n_n 64 rfl rfl k
  have el : dot_S1024x64_S64x128_S1024x128_1_0_0_1_n_n.lhsIdx (ix2 (flatRow r w) n)
      ((ValueIdx.contrEquiv1 dot_S1024x64_S64x128_S1024x128_1_0_0_1_n_n 64 rfl rfl).symm k) = ix2 (flatRow r w) k :=
    funext fun a => Fin.ext (by
      match a with
      | ⟨0, _⟩ => exact lhs_row _ _
      | ⟨1, _⟩ => exact (dot_S1024x64_S64x128_S1024x128_1_0_0_1_n_n.lhsIdx_val_of_single rfl _ _).trans hk)
  have er : dot_S1024x64_S64x128_S1024x128_1_0_0_1_n_n.rhsIdx (ix2 (flatRow r w) n)
      ((ValueIdx.contrEquiv1 dot_S1024x64_S64x128_S1024x128_1_0_0_1_n_n 64 rfl rfl).symm k) = ix2 k n :=
    funext fun a => Fin.ext (by
      match a with
      | ⟨0, _⟩ => exact (dot_S1024x64_S64x128_S1024x128_1_0_0_1_n_n.rhsIdx_val_of_single rfl _ _).trans hk
      | ⟨1, _⟩ => exact rhs_col _ _)
  rw [el, er]
  exact congrArg₂ (· * ·) (flatten_apply xc hflat r w k) (transpose_ix2_apply s1 htr k n)

/-! ## The payloads -/

theorem pay2_apply (v0 : Vec Ideal S128x64 .f32) (n : Fin 128) (l : Fin 64) :
    k0_pay2 (F := Ideal) v0 (ix2 n l) = v0 (ix2 n l) := rfl

/-- The squared norm of shapelet `n`. -/
theorem pay3_apply (v0 : Vec Ideal S128x64 .f32) (n : Fin 128) :
    k0_pay3 (F := Ideal) v0 (ix1 n) = ∑ l : Fin 64, v0 (ix2 n l) * v0 (ix2 n l) := by
  unfold k0_pay3
  exact sumRow_apply (mulf v0 v0) 0x00000000#32 _ _ _ n

theorem pay5_apply (v0 : Vec Ideal S128x64 .f32) (v29 : Vec Ideal S16x64x64 .f32) (r : Fin 16) (w : Fin 64) (n : Fin 128) :
    k0_pay5 (F := Ideal) v0 v29 (ix3 r w n) = ∑ l : Fin 64, v29 (ix3 r w l) * v0 (ix2 n l) := by
  unfold k0_pay5
  exact innerProduct_apply v29 (k0_pay2 v0) _ _ _ _ r w n

theorem pay6_apply (v29 : Vec Ideal S16x64x64 .f32) (r : Fin 16) (w : Fin 64) (n : Fin 128) :
    k0_pay6 (F := Ideal) v29 (ix3 r w n) = ∑ l : Fin 64, v29 (ix3 r w l) * v29 (ix3 r w l) := by
  unfold k0_pay6
  exact windowNorm_apply v29 _ _ _ _ _ r w n

theorem pay7_apply (v0 : Vec Ideal S128x64 .f32) (r : Fin 16) (w : Fin 64) (n : Fin 128) :
    k0_pay7 (F := Ideal) v0 (ix3 r w n) = ∑ l : Fin 64, v0 (ix2 n l) * v0 (ix2 n l) := by
  unfold k0_pay7
  exact (shapeletNorm_apply (k0_pay3 v0) _ _ r w n).trans (pay3_apply v0 n)

theorem pay9_apply (v1 : FVec Ideal S128x64 .bf16) (v71 : Vec Ideal S16x64x64 .f32) (r : Fin 16) (w : Fin 64) (n : Fin 128) :
    k0_pay9 (F := Ideal) v1 v71 (ix3 r w n) = ∑ l : Fin 64, v71 (ix3 r w l) * v1 (ix2 n l) := by
  unfold k0_pay9
  exact innerProduct_apply v71 v1 _ _ _ _ r w n

theorem pay10_apply (v3 : FVec Ideal S128 .f32) (v71 : Vec Ideal S16x64x64 .f32) (r : Fin 16) (w : Fin 64) (n : Fin 128) :
    k0_pay10 (F := Ideal) v3 v71 (ix3 r w n) = (∑ l : Fin 64, v71 (ix3 r w l) * v71 (ix3 r w l)) + v3 (ix1 n) := by
  unfold k0_pay10
  simp only [addf_apply]
  exact congrArg₂ (· + ·) (windowNorm_apply v71 _ _ _ _ _ r w n) (shapeletNorm_apply v3 _ _ r w n)

end Cert.Shapelet.KernelOps

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelBlock.lean ====
/-
  What the kernel's body leaves in its output block.

  At a grid point the body holds a block of 16 samples (all 256 windows of each), all 128 shapelets, the weights
  and the bias.  It reads the windows in four runs of 64; for each run it forms the expanded squared distances
  ‖x‖² + ‖s‖² − 2⟨x, s⟩ to every shapelet and joins the run's minimum to the running minimum; then it clamps at
  zero, takes the square root, sums against the weights, adds the bias and applies the logistic function.  Row `r`
  of the block it stores is that value for sample `r` of the block.
-/
import proofs.«141194_j65755949302130_2_alg».proof.Proof.Gen.KernelIdeal.Frame
import proofs.«141194_j65755949302130_2_alg».proof.Proof.KernelOps
import proofs.«141194_j65755949302130_2_alg».proof.Proof.LibRows

set_option maxRecDepth 16384

noncomputable section

open Idealize.ShloMosaic Idealize.ShloMosaic.ValueIdx Idealize.ShloMosaic.TcCoe Idealize.SL.Sem Idealize.ShloMosaic.Tactic Finset
open Cert.KernelIdeal Cert.KernelIdeal.Gen Cert.Shapelet.Layout Cert.Shapelet.KernelOps
open Cert.Shapelet.Spec (TWO INF Z runWin)

namespace Cert.Shapelet.KernelBlock

theorem hz2 : (![0, 0] : Fin 2 → Nat) = fun _ => 0 := funext fun a => by fin_cases a <;> rfl
theorem hz1 : (![0] : Fin 1 → Nat) = fun _ => 0 := funext fun a => by fin_cases a <;> rfl

/-! ## The three remaining payloads -/

theorem vsqrt_apply {s : Shape} {φ : FTy} (a : FVec Ideal s φ) (i : s.Idx) : sqrt a i = Ideal.sqrt (a i) := rfl

/-- The first run: its minimum joined to +∞. -/
theorem pay4_apply (v0 : Vec Ideal S128x64 .f32) (v8 : Vec Ideal S16x64x64 .f32) (r : Fin 16) (n : Fin 128) :
    k0_pay4 (F := Ideal) v0 v8 (ix2 r n) = min INF ((univ : Finset (Fin 64)).fold min INF fun w =>
      ((∑ l : Fin 64, v8 (ix3 r w l) * v8 (ix3 r w l)) + ∑ l : Fin 64, v0 (ix2 n l) * v0 (ix2 n l))
        - TWO * ∑ l : Fin 64, v8 (ix3 r w l) * v0 (ix2 n l)) := by
  unfold k0_pay4
  simp only [minimumf_apply, broadcast_apply]
  refine congrArg₂ min rfl ((minMid_apply _ _ _ _ _ r n).trans (Finset.fold_congr fun w _ => ?_))
  simp only [subf_apply, addf_apply, mulf_apply, broadcast_apply]
  exact congrArg₂ (· - ·)
    (congrArg₂ (· + ·) (windowNorm_apply v8 _ _ _ _ _ r w n)
      ((shapeletNorm_apply (k0_pay3 v0) _ _ r w n).trans (pay3_apply v0 n)))
    (congrArg (TWO * ·) (innerProduct_apply v8 (k0_pay2 v0) _ _ _ _ r w n))

/-- The second and third runs joined to the running minimum. -/
theorem pay8_apply (v1 : FVec Ideal S128x64 .bf16) (v3 : FVec Ideal S128 .f32) (v25 : FVec Ideal S16x128 .f32)
    (v34 v39 v40 : FVec Ideal S16x64x128 .f32) (v50 : Vec Ideal S16x64x64 .f32) (r : Fin 16) (n : Fin 128) :
    k0_pay8 (F := Ideal) v1 v3 v25 v34 v39 v40 v50 (ix2 r n)
      = min (min (v25 (ix2 r n)) ((univ : Finset (Fin 64)).fold min INF fun w =>
            (v39 (ix3 r w n) + v40 (ix3 r w n)) - TWO * v34 (ix3 r w n)))
          ((univ : Finset (Fin 64)).fold min INF fun w =>
            ((∑ l : Fin 64, v50 (ix3 r w l) * v50 (ix3 r w l)) + v3 (ix1 n))
              - TWO * ∑ l : Fin 64, v50 (ix3 r w l) * v1 (ix2 n l)) := by
  unfold k0_pay8
  simp only [minimumf_apply]
  refine congrArg₂ min (congrArg₂ min rfl ((minMid_apply _ _ _ _ _ r n).trans (Finset.fold_congr fun w _ => ?_)))
    ((minMid_apply _ _ _ _ _ r n).trans (Finset.fold_congr fun w _ => ?_))
  · simp only [subf_apply, addf_apply, mulf_apply, broadcast_apply]
    rfl
  · simp only [subf_apply, addf_apply, mulf_apply, broadcast_apply]
    exact congrArg₂ (· - ·)
      (congrArg₂ (· + ·) (windowNorm_apply v50 _ _ _ _ _ r w n) (shapeletNorm_apply v3 _ _ r w n))
      (congrArg (TWO * ·) (innerProduct_apply v50 v1 _ _ _ _ r w n))

/-- The fourth run joined, then the tail: clamp, square root, weighted sum, bias, logistic. -/
theorem pay1_apply (v67 : FVec Ideal S16x128 .f32) (v76 v83 : FVec Ideal S16x64x128 .f32) (cst_27 : Ideal .f32)
    (v92 : Vec Ideal S1x128 .f32) (v93 : Vec Ideal S1 .f32) (r : Fin 16) :
    k0_pay1 (F := Ideal) v67 v76 v83 cst_27 v92 v93 (ix2 r (0 : Fin 1))
      = Ideal.logistic ((∑ n : Fin 128, Ideal.sqrt (max (min (v67 (ix2 r n))
            ((univ : Finset (Fin 64)).fold min INF fun w => v83 (ix3 r w n) - cst_27 * v76 (ix3 r w n))) Z)
          * v92 (ix2 (0 : Fin 1) n)) + v93 (ix1 (0 : Fin 1))) := by
  unfold k0_pay1
  show Ideal.logistic (shapeCast S16x1 _ _ (ix2 r (0 : Fin 1)) + broadcastTo S16x1 _ _ (ix2 r (0 : Fin 1))) = _
  refine congrArg Ideal.logistic (congrArg₂ (· + ·) ?_ ((scalarSpread_apply _ _ r).trans (scalarCast_apply v93 _)))
  refine (Cert.Rows.cast_col _ _ r).trans ((sumRow_apply _ _ _ _ _ r).trans (Finset.sum_congr rfl fun n _ => ?_))
  simp only [mulf_apply, vsqrt_apply, maximumf_apply, minimumf_apply, broadcast_apply]
  refine congrArg₂ (· * ·)
    (congrArg Ideal.sqrt (congrArg₂ max (congrArg₂ min rfl
      ((minMid_apply _ _ _ _ _ r n).trans (Finset.fold_congr fun w _ => ?_))) rfl))
    (Cert.Rows.bcast_row (by decide) v92 _ r n)
  simp only [subf_apply, mulf_apply, broadcast_apply]

/-! ## The body's loads -/

variable {α : Type}

theorem ld_run0 (x0 : S16x256x64.Idx → α) (inb : ∀ a, (![0, 0, 0] : Fin 3 → ℕ) a + S16x64x64.size a ≤ S16x256x64.size a)
    (r : Fin 16) (w : Fin 64) (l : Fin 64) :
    x0 ((Rect.unit (s := S16x256x64) ![0, 0, 0] S16x64x64.size inb).idx (ix3 r w l)) = x0 (ix3 r (runWin 0 w) l) :=
  congrArg x0 (funext fun a => Fin.ext (by
    match a with
    | ⟨0, _⟩ => show 0 + 1 * r.val = r.val; omega
    | ⟨1, _⟩ => show 0 + 1 * w.val = 64 * 0 + w.val; omega
    | ⟨2, _⟩ => show 0 + 1 * l.val = l.val; omega))

theorem ld_run1 (x0 : S16x256x64.Idx → α) (inb : ∀ a, (![0, 64, 0] : Fin 3 → ℕ) a + S16x64x64.size a ≤ S16x256x64.size a)
    (r : Fin 16) (w : Fin 64) (l : Fin 64) :
    x0 ((Rect.unit (s := S16x256x64) ![0, 64, 0] S16x64x64.size inb).idx (ix3 r w l)) = x0 (ix3 r (runWin 1 w) l) :=
  congrArg x0 (funext fun a => Fin.ext (by
    match a with
    | ⟨0, _⟩ => show 0 + 1 * r.val = r.val; omega
    | ⟨1, _⟩ => show 64 + 1 * w.val = 64 * 1 + w.val; omega
    | ⟨2, _⟩ => show 0 + 1 * l.val = l.val; omega))

theorem ld_run2 (x0 : S16x256x64.Idx → α) (inb : ∀ a, (![0, 128, 0] : Fin 3 → ℕ) a + S16x64x64.size a ≤ S16x256x64.size a)
    (r : Fin 16) (w : Fin 64) (l : Fin 64) :
    x0 ((Rect.unit (s := S16x256x64) ![0, 128, 0] S16x64x64.size inb).idx (ix3 r w l)) = x0 (ix3 r (runWin 2 w) l) :=
  congrArg x0 (funext fun a => Fin.ext (by
    match a with
    | ⟨0, _⟩ => show 0 + 1 * r.val = r.val; omega
    | ⟨1, _⟩ => show 128 + 1 * w.val = 64 * 2 + w.val; omega
    | ⟨2, _⟩ => show 0 + 1 * l.val = l.val; omega))

theorem ld_run3 (x0 : S16x256x64.Idx → α) (inb : ∀ a, (![0, 192, 0] : Fin 3 → ℕ) a + S16x64x64.size a ≤ S16x256x64.size a)
    (r : Fin 16) (w : Fin 64) (l : Fin 64) :
    x0 ((Rect.unit (s := S16x256x64) ![0, 192, 0] S16x64x64.size inb).idx (ix3 r w l)) = x0 (ix3 r (runWin 3 w) l) :=
  congrArg x0 (funext fun a => Fin.ext (by
    match a with
    | ⟨0, _⟩ => show 0 + 1 * r.val = r.val; omega
    | ⟨1, _⟩ => show 192 + 1 * w.val = 64 * 3 + w.val; omega
    | ⟨2, _⟩ => show 0 + 1 * l.val = l.val; omega))

/-! ## The stored block -/

section Stored
variable {F : FTy → Type} [FloatOps F]

/-- What the body leaves in the output's staging buffer is its one store's payload, over the four runs of the sample
    block, the shapelets, the weights and the bias as loaded. -/
theorem out_eq (c : Dev nD) (i : grid0.Coords) (a1 : Memref sig .tc .vmem S16x256x64 .f32) (h1 : a1.IsWhole)
    (a2 : Memref sig .tc .vmem S128x64 .f32) (h2 : a2.IsWhole) (a3 : Memref sig .tc .vmem S1x128 .f32) (h3 : a3.IsWhole)
    (a4 : Memref sig .tc .vmem S1 .f32) (h4 : a4.IsWhole) (a5 : Memref sig .tc .vmem S16x1 .f32) (h5 : a5.IsWhole)
    (x0 : Vec F S16x256x64 .f32) (x1 : Vec F S128x64 .f32) (x2 : Vec F S1x128 .f32) (x3 : Vec F S1 .f32) :
    out0_A_4 c i a1 h1 a2 h2 a3 h3 a4 h4 a5 h5 x0 x1 x2 x3
      = k0_pay1
          (k0_pay8 (k0_pay2 x1) (k0_pay3 x1)
            (k0_pay4 x1 (View.ld x0 (Rect.unit ![0, 0, 0] S16x64x64.size (by decide))))
            (k0_pay5 x1 (View.ld x0 (Rect.unit ![0, 64, 0] S16x64x64.size (by decide))))
            (k0_pay6 (View.ld x0 (Rect.unit ![0, 64, 0] S16x64x64.size (by decide))))
            (k0_pay7 x1)
            (View.ld x0 (Rect.unit ![0, 128, 0] S16x64x64.size (by decide))))
          (k0_pay9 (k0_pay2 x1) (View.ld x0 (Rect.unit ![0, 192, 0] S16x64x64.size (by decide))))
          (k0_pay10 (k0_pay3 x1) (View.ld x0 (Rect.unit ![0, 192, 0] S16x64x64.size (by decide))))
          (FloatOps.ofBits .f32 0x40000000#32) x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz2]
  simp only [View.readAt_eq_ld, h1.read_unread, h2.read_unread, h3.read_unread, h4.read_unread,
    View.ld_unit_zero (S := S1x128) hz2, View.ld_unit_zero (S := S128x64) hz2, View.ld_unit_zero (S := S1) hz1]

end Stored

/-- ROW `r` OF THE STORED BLOCK, as a function of the blocks the body was given. -/
theorem block_apply (c : Dev nD) (i : grid0.Coords) (a1 : Memref sig .tc .vmem S16x256x64 .f32) (h1 : a1.IsWhole)
    (a2 : Memref sig .tc .vmem S128x64 .f32) (h2 : a2.IsWhole) (a3 : Memref sig .tc .vmem S1x128 .f32) (h3 : a3.IsWhole)
    (a4 : Memref sig .tc .vmem S1 .f32) (h4 : a4.IsWhole) (a5 : Memref sig .tc .vmem S16x1 .f32) (h5 : a5.IsWhole)
    (x0 : Vec Ideal S16x256x64 .f32) (x1 : Vec Ideal S128x64 .f32) (x2 : Vec Ideal S1x128 .f32) (x3 : Vec Ideal S1 .f32)
    (r : Fin 16) :
    out0_A_4 (F := Ideal) c i a1 h1 a2 h2 a3 h3 a4 h4 a5 h5 x0 x1 x2 x3 (ix2 r (0 : Fin 1))
      = Ideal.logistic ((∑ n : Fin 128,
          Ideal.sqrt (max (Spec.runMin (fun w l => x0 (ix3 r w l)) (fun l => x1 (ix2 n l))) Z) * x2 (ix2 (0 : Fin 1) n))
        + x3 (ix1 (0 : Fin 1))) := by
  rw [out_eq, pay1_apply]
  simp only [pay8_apply, pay4_apply, pay5_apply, pay6_apply, pay7_apply, pay9_apply, pay10_apply, pay3_apply,
    pay2_apply, View.ld, ld_run0, ld_run1, ld_run2, ld_run3]
  rfl

end Cert.Shapelet.KernelBlock

end
-- ==== Proof.KernelForm.lean ====
/-
  The result in the kernel's form, and that on finite inputs it is the specification.

  The kernel's result for sample `b` is the logistic of the weighted sum, over the shapelets, of the square root of
  its clamped running minimum of expanded squared distances, plus the bias; by the bridge of the specification
  module each summand's square root is the sample's distance to the shapelet when the sample and the shapelet are
  finite.
-/
import proofs.«141194_j65755949302130_2_alg».proof.Proof.Spec

noncomputable section

open Idealize.ShloMosaic Idealize.ShloMosaic.ValueIdx Finset

namespace Cert.Shapelet.Spec

/-- The result as the kernel computes it, one function of the four argument arrays. -/
def K (X : (⟨3, ![64, 256, 64]⟩ : Shape).Idx → EReal) (S : (⟨2, ![128, 64]⟩ : Shape).Idx → EReal)
    (Wt : (⟨2, ![1, 128]⟩ : Shape).Idx → EReal) (Bv : (⟨1, ![1]⟩ : Shape).Idx → EReal) :
    (⟨2, ![64, 1]⟩ : Shape).Idx → EReal := fun i =>
  Ideal.logistic ((∑ n : Fin 128,
      Ideal.sqrt (max (runMin (fun w l => X (ix3 (i 0) w l)) (fun l => S (ix2 n l))) Z) * Wt (ix2 (0 : Fin 1) n))
    + Bv (ix1 (0 : Fin 1)))

/-- On finite samples and shapelets the kernel's form is the specification. -/
theorem K_eq_G (X : (⟨3, ![64, 256, 64]⟩ : Shape).Idx → EReal) (S : (⟨2, ![128, 64]⟩ : Shape).Idx → EReal)
    (Wt : (⟨2, ![1, 128]⟩ : Shape).Idx → EReal) (Bv : (⟨1, ![1]⟩ : Shape).Idx → EReal)
    (hX : ∀ i, ∃ r : ℝ, X i = (r : EReal)) (hS : ∀ i, ∃ r : ℝ, S i = (r : EReal)) : K X S Wt Bv = G X S Wt Bv := by
  funext i
  unfold K G
  refine congrArg Ideal.logistic (congrArg (· + Bv (ix1 (0 : Fin 1))) (Finset.sum_congr rfl fun n _ => ?_))
  rw [sqrt_runMin _ _ (fun w l => hX _) (fun l => hS _)]

/-- Row `r` of a block of 16 samples, computed from the block's entries, is the kernel's form at the array index
    the row sits at, once each block entry read is the array entry there. -/
theorem K_of_block (x0 : (⟨3, ![16, 256, 64]⟩ : Shape).Idx → EReal) (x1 : (⟨2, ![128, 64]⟩ : Shape).Idx → EReal)
    (x2 : (⟨2, ![1, 128]⟩ : Shape).Idx → EReal) (x3 : (⟨1, ![1]⟩ : Shape).Idx → EReal)
    (X : (⟨3, ![64, 256, 64]⟩ : Shape).Idx → EReal) (S : (⟨2, ![128, 64]⟩ : Shape).Idx → EReal)
    (Wt : (⟨2, ![1, 128]⟩ : Shape).Idx → EReal) (Bv : (⟨1, ![1]⟩ : Shape).Idx → EReal)
    (r : Fin 16) (i : (⟨2, ![64, 1]⟩ : Shape).Idx)
    (hx : ∀ w l, x0 (ix3 r w l) = X (ix3 (i 0) w l)) (hs : ∀ n l, x1 (ix2 n l) = S (ix2 n l))
    (hw : ∀ n, x2 (ix2 (0 : Fin 1) n) = Wt (ix2 (0 : Fin 1) n)) (hb : x3 (ix1 (0 : Fin 1)) = Bv (ix1 (0 : Fin 1))) :
    Ideal.logistic ((∑ n : Fin 128,
        Ideal.sqrt (max (runMin (fun w l => x0 (ix3 r w l)) (fun l => x1 (ix2 n l))) Z) * x2 (ix2 (0 : Fin 1) n))
      + x3 (ix1 (0 : Fin 1))) = K X S Wt Bv i := by
  unfold K
  simp only [hx, hs, hw, hb]

end Cert.Shapelet.Spec

end
-- ==== Proof.KernelValue.lean ====
/-
  From the blocks to the array.

  The grid has four points; point `t` is given samples `16 t … 16 t + 15` (all windows), all shapelets, the weights
  and the bias, and writes rows `16 t … 16 t + 15` of the result.  Row `r` of the block stored at point `t` is the
  kernel's form of the result at array row `16 t + r`; the four blocks cover the 64 rows; so after the run the
  result array is the kernel's form of the result, a function of the argument arrays as the run found them.
-/
import proofs.«141194_j65755949302130_2_alg».proof.Proof.Gen.KernelIdeal.Value
import proofs.«141194_j65755949302130_2_alg».proof.Proof.KernelBlock
import proofs.«141194_j65755949302130_2_alg».proof.Proof.KernelForm

set_option maxRecDepth 16384

noncomputable section

open Idealize.ShloMosaic Idealize.ShloMosaic.ValueIdx Idealize.ShloMosaic.TcCoe Idealize.SL.Sem Finset
open Cert.KernelIdeal Cert.KernelIdeal.Gen Cert.KernelIdeal.Value
open Idealize.ShloMosaic.Pipeline (Dat)

namespace Cert.Shapelet.KernelValue

variable (m : (ℓ : Loc nD τ sig) → Buf (Elt Ideal) ℓ) (ρ : Dev nD → PrngReg)

/-- The result array the kernel leaves on core `c`: the kernel's form of the result of the arrays the run found. -/
def result (c : Dev nD) : S64x1.Idx → EReal :=
  Spec.K (V m c main_arg0) (V m c main_arg1) (V m c main_arg2) (V m c main_arg3)

/-- The printed index maps over the four grid points: the sample window and the result window move together, one
    block of 16 rows per point; every other block index is zero. -/
theorem idx_facts : ∀ t : Fin cfg0.N, win0_0.index t (0 : Fin 3) = win0_4.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT POINT `t` WRITES BACK is block `t` of the result. -/
theorem flushed_eq (c : Dev nD) (t : Fin cfg0.N) :
    (dats m 0 c).flushed 4 t = ((cfg0.win 4).blk t).view.read (Elt Ideal) (result m c) := by
  rw [flushed4_A]
  obtain ⟨e0, e1, e2, e3, e4, e5, e6, e7, e8, e9⟩ := idx_facts t
  funext j
  obtain ⟨r, u, rfl⟩ : ∃ (r : Fin 16) (u : Fin 1), j = ix2 r u := ⟨j 0, j 1, eq_ix2 j⟩
  obtain rfl : u = 0 := Subsingleton.elim _ _
  show out0_A_4 c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) (ix2 r (0 : Fin 1))
    = result m c (((cfg0.win 4).blk t).view.emb (ix2 r (0 : Fin 1)))
  refine (KernelBlock.block_apply c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) r).trans ?_
  refine Spec.K_of_block (iblk m c 0 t) (iblk m c 1 t) (iblk m c 2 t) (iblk m c 3 t)
    (V m c main_arg0) (V m c main_arg1) (V m c main_arg2) (V m c main_arg3) r
    (((cfg0.win 4).blk t).view.emb (ix2 r (0 : Fin 1))) ?_ ?_ ?_ ?_
  · intro w l
    show V m c main_arg0 (((cfg0.win 0).blk t).view.emb (ix3 r w l)) = V m c main_arg0 _
    refine congrArg (V m c main_arg0) (funext fun a => Fin.ext ?_)
    match a with
    | ⟨0, _⟩ => show win0_0.index t (0 : Fin 3) * 16 + 1 * r.val = win0_4.index t (0 : Fin 2) * 16 + 1 * r.val; rw [e0]
    | ⟨1, _⟩ => show win0_0.index t (1 : Fin 3) * 256 + 1 * w.val = w.val; rw [e1]; omega
    | ⟨2, _⟩ => show win0_0.index t (2 : Fin 3) * 64 + 1 * l.val = l.val; rw [e2]; omega
  · intro n l
    show V m c main_arg1 (((cfg0.win 1).blk t).view.emb (ix2 n l)) = V m c main_arg1 _
    refine congrArg (V m c main_arg1) (funext fun a => Fin.ext ?_)
    match a with
    | ⟨0, _⟩ => show win0_1.index t (0 : Fin 2) * 128 + 1 * n.val = n.val; rw [e3]; omega
    | ⟨1, _⟩ => show win0_1.index t (1 : Fin 2) * 64 + 1 * l.val = l.val; rw [e4]; omega
  · intro n
    show V m c main_arg2 (((cfg0.win 2).blk t).view.emb (ix2 (0 : Fin 1) n)) = V m c main_arg2 _
    refine congrArg (V m c main_arg2) (funext fun a => Fin.ext ?_)
    match a with
    | ⟨0, _⟩ => show win0_2.index t (0 : Fin 2) * 1 + 1 * 0 = 0; rw [e5]
    | ⟨1, _⟩ => show win0_2.index t (1 : Fin 2) * 128 + 1 * n.val = n.val; rw [e6]; omega
  · show V m c main_arg3 (((cfg0.win 3).blk t).view.emb (ix1 (0 : Fin 1))) = V m c main_arg3 _
    refine congrArg (V m c main_arg3) (funext fun a => Fin.ext ?_)
    match a with
    | ⟨0, _⟩ => show win0_3.index t (0 : Fin 1) * 1 + 1 * 0 = 0; rw [e7]

/-- An index of the result array is in point `t`'s block iff each coordinate is in the block's range on its axis. -/
theorem mem_blk (t : Fin cfg0.N) (i : S64x1.Idx) :
    i ∈ ((cfg0.win 4).blk t).view.set ↔ ∀ a : Fin 2, win0_4.index t a * S16x1.size a ≤ (i a).val
      ∧ (i a).val < win0_4.index t a * S16x1.size a + S16x1.size a := by
  show i ∈ ((View.whole main_v0).slice (win0_4.rect t)).set ↔ _
  rw [View.set_slice_whole, Rect.mem_set_unit]
  exact Iff.rfl

/-- Every row of the result is in the block of the point `row / 16`. -/
theorem cover (i : S64x1.Idx) : ∃ t : Fin cfg0.N, (cfg0.win 4).flush t = true ∧ i ∈ ((cfg0.win 4).blk t).view.set := by
  have hi0 : (i 0).val < 64 := (i 0).isLt
  have hi1 : (i 1).val < 1 := (i 1).isLt
  have hN : grid0.N = 4 := N_0
  refine ⟨⟨(i 0).val / 16, by show (i 0).val / 16 < grid0.N; rw [hN]; omega⟩, flush0_4 _, ?_⟩
  rw [mem_blk]
  obtain ⟨-, -, -, -, -, -, -, -, e8, e9⟩ := idx_facts ⟨(i 0).val / 16, by show (i 0).val / 16 < grid0.N; rw [hN]; omega⟩
  intro a
  match a with
  | ⟨0, _⟩ =>
    show win0_4.index _ (0 : Fin 2) * 16 ≤ (i 0).val ∧ (i 0).val < win0_4.index _ (0 : Fin 2) * 16 + 16
    rw [e8]; show (i 0).val / 16 * 16 ≤ (i 0).val ∧ (i 0).val < (i 0).val / 16 * 16 + 16; omega
  | ⟨1, _⟩ =>
    show win0_4.index _ (1 : Fin 2) * 1 ≤ (i 1).val ∧ (i 1).val < win0_4.index _ (1 : Fin 2) * 1 + 1
    rw [e9]; omega

/-- THE ARRAY after the run is the result. -/
theorem final (c : Dev nD) : (dats m 0 c).arrAt 4 cfg0.N = result m c :=
  (dats m 0 c).arrAt_eq_of_cover 4 (result m c) (fun t _ => flushed_eq m c t) cover

/-- The run, read: the result array at the kernel's form of the result of the arguments, the arguments unchanged. -/
theorem run : θ_run defs (onTc (τ := τ) (main (F := Ideal))) ⟨m, fun _ => 0, ρ⟩ fun r => ∀ c : Dev nD,
      r.2.mem ((c : Thread nD τ).loc main_v0)
        = Spec.K (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Shapelet.KernelValue

end
-- ==== Proof.RefValue.lean ====
/-
  The reference, read entry by entry, is the specification.

  At `(b, w, n)` the reference's broadcast difference, squared and summed over the last axis, is the sum of squared
  differences between window `w` of sample `b` and shapelet `n`; its square root is the Euclidean distance; the
  minimum over the window axis, folded from +∞, is the distance from the sample to the shapelet; the product with
  the transposed weights sums these against the weights; bias, negation, exponential, `1 + ·` and `1 / ·` spell
  the logistic function.
-/
import proofs.«141194_j65755949302130_2_alg».proof.Proof.Gen.ReferenceIdeal.Read
import proofs.«141194_j65755949302130_2_alg».proof.Proof.Spec
import Idealize.ShloMosaic.PureOps.Reduce

noncomputable section

open Idealize.ShloMosaic Idealize.ShloMosaic.ValueIdx Finset
open Cert.ReferenceIdeal Cert.ReferenceIdeal.Gen Cert.ReferenceIdeal.Read

namespace Cert.Shapelet.RefValue

/-- Reducing the window axis of `[64, 256, 128]`: the sources of `(b, n)` are `(b, k, n)`. -/
theorem lift_window (h : S64x256x128.Reduces [1] S64x128) (b : Fin 64) (n : Fin 128)
    (k : Fin (S64x256x128.size 1)) : h.lift (ix2 b n) k = ix3 b (⟨k.val, k.isLt⟩ : Fin 256) n := by
  funext c; apply Fin.ext
  fin_cases c <;> rfl

theorem src_x (b : Fin 64) (w : Fin 256) (n : Fin 128) (k : Fin 64) :
    idx_main_v0 (idx_main_v2 (idx_main_v6 (ix3 b w n) k)) = ix3 b w k :=
  funext fun a => Fin.ext (by match a with | ⟨0, _⟩ => rfl | ⟨1, _⟩ => rfl | ⟨2, _⟩ => rfl)

theorem src_s (b : Fin 64) (w : Fin 256) (n : Fin 128) (k : Fin 64) :
    idx_main_v1 (idx_main_v3 (idx_main_v6 (ix3 b w n) k)) = ix2 n k :=
  funext fun a => Fin.ext (by match a with | ⟨0, _⟩ => rfl | ⟨1, _⟩ => rfl)

/-- The reference's distance array at `(b, w, n)`. -/
theorem dist_apply (x0 : (⟨S64x256x64, .f32⟩ : BufTy).Contents (Elt Ideal)) (x1 : (⟨S128x64, .f32⟩ : BufTy).Contents (Elt Ideal))
    (b : Fin 64) (w : Fin 256) (n : Fin 128) :
    val_main_v7 (F := Ideal) x0 x1 (ix3 b w n)
      = Ideal.sqrt (Spec.sqDist (fun w l => x0 (ix3 b w l)) (fun l => x1 (ix2 n l)) w) := by
  rw [val_main_v7_apply, val_main_v6_apply, val_main_cst_apply]
  simp only [val_main_v5_apply, val_main_v4_apply, val_main_v2_apply, val_main_v0_apply, val_main_v3_apply,
    val_main_v1_apply, src_x, src_s, Ideal.hostUnary_sqrt_def, Ideal.ofBits_def, Ideal.mulf_def, Ideal.subf_def,
    Ideal.ofBits_zero_f32, zero_add]
  rfl

/-- The reference's minimum over the windows at `(b, n)`: the distance from sample `b` to shapelet `n`. -/
theorem minDist_apply (x0 : (⟨S64x256x64, .f32⟩ : BufTy).Contents (Elt Ideal)) (x1 : (⟨S128x64, .f32⟩ : BufTy).Contents (Elt Ideal))
    (b : Fin 64) (n : Fin 128) :
    val_main_v8 (F := Ideal) x0 x1 (ix2 b n) = Spec.minDist (fun w l => x0 (ix3 b w l)) (fun l => x1 (ix2 n l)) := by
  unfold val_main_v8
  rw [Host.reduce_eq_fold_single FloatOps.minimumf _ _ reducesTo_S64x256x128_S64x128_d1 (by decide) h_S_ (ix2 b n),
    val_main_cst_0_apply]
  unfold Spec.minDist
  rw [← Spec.inf_eq]
  refine Finset.fold_congr fun k _ => ?_
  show val_main_v7 (F := Ideal) x0 x1 (Shape.Reduces.lift _ (ix2 b n) k) = _
  rw [lift_window, dist_apply]
  rfl

theorem src_w (b : Fin 64) (u : Fin 1) (k : Fin 128) : idx_main_v9 (ridx_main_v10 (ix2 b u) k) = ix2 (0 : Fin 1) k :=
  funext fun a => Fin.ext (by
    match a with
    | ⟨0, _⟩ => show u.val = 0; omega
    | ⟨1, _⟩ => rfl)

theorem src_m (b : Fin 64) (u : Fin 1) (k : Fin 128) : lidx_main_v10 (ix2 b u) k = ix2 b k :=
  funext fun a => Fin.ext (by match a with | ⟨0, _⟩ => rfl | ⟨1, _⟩ => rfl)

theorem src_b (i : S64x1.Idx) : idx_main_v11 (idx_main_v12 i) = ix1 (0 : Fin 1) :=
  funext fun a => Fin.ext (by match a with | ⟨0, _⟩ => rfl)

/-- THE REFERENCE IS THE SPECIFICATION. -/
theorem ref_eq (x0 : (⟨S64x256x64, .f32⟩ : BufTy).Contents (Elt Ideal)) (x1 : (⟨S128x64, .f32⟩ : BufTy).Contents (Elt Ideal))
    (x2 : (⟨S1x128, .f32⟩ : BufTy).Contents (Elt Ideal)) (x3 : (⟨S1, .f32⟩ : BufTy).Contents (Elt Ideal)) :
    val_main_v19 (F := Ideal) x0 x1 x2 x3 = Spec.G x0 x1 x2 x3 := by
  funext i
  obtain ⟨b, u, rfl⟩ : ∃ (b : Fin 64) (u : Fin 1), i = ix2 b u := ⟨i 0, i 1, eq_ix2 i⟩
  rw [val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply]
  simp only [val_main_v9_apply, src_w, src_m, src_b, minDist_apply, Ideal.hostDivf_def, Ideal.hostNegf_def, Ideal.negf_def,
    Ideal.hostUnary_exp_def, Ideal.addf_def, Ideal.ofBits_def, Spec.one_eq]
  rfl

end Cert.Shapelet.RefValue

end
-- ==== Proof.Finite.lean ====
/-
  The precondition, read back: every entry of the samples and of the shapelets is a real number.

  The precondition is the conjunction of four `all`s, each over the comparisons |x| < +∞ of one argument array.
  A conjunction that is 1 has both conjuncts 1; an `all` that is 1 had a 1 at every entry; and an extended real
  whose absolute value is below +∞ is neither infinity, that is, a real.
-/
import proofs.«141194_j65755949302130_2_alg».proof.Pre_finite_inputs
import proofs.«141194_j65755949302130_2_alg».proof.Proof.Gen.Pre_finite_inputs
import proofs.«141194_j65755949302130_2_alg».proof.Proof.Spec
import Idealize.ShloMosaic.Lib.ReduceAll
import Idealize.ShloMosaic.Lib.ValueIdx

noncomputable section

open Idealize.ShloMosaic Cert.Pre_finite_inputs

namespace Cert.Shapelet.Finite

instance : Subsingleton S_.Idx := ⟨fun a b => funext fun d => d.elim0⟩

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := Spec.inf_eq
  rw [htop] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | top => simp at hlt
  | coe r => exact ⟨r, rfl⟩

/-- Under the precondition the samples and the shapelets are finite. -/
theorem finite_of_pre (a0 : FVec Ideal S64x256x64 .f32) (a1 : FVec Ideal S128x64 .f32) (a2 : FVec Ideal S1x128 .f32)
    (a3 : FVec Ideal S1 .f32) (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  obtain ⟨h012, -⟩ := IntOp.andi_eq_one.1 h0
  obtain ⟨h01, -⟩ := IntOp.andi_eq_one.1 h012
  obtain ⟨hx, hs⟩ := IntOp.andi_eq_one.1 h01
  exact ⟨fun i => real_of_abs_lt_inf (a0 i) (Host.reduce_andi_all _ _ _ _ _ hx i),
    fun i => real_of_abs_lt_inf (a1 i) (Host.reduce_andi_all _ _ _ _ _ hs i)⟩

end Cert.Shapelet.Finite

end
-- ==== Proof.lean ====
/-
  The certificate: the shapelet-distance kernel against its reference.

  Both programs compute, for each of 64 samples, the logistic of a weighted sum over 128 shapelets of the least
  Euclidean distance between the shapelet and the sample's 256 windows.  The reference takes the distances
  literally.  The kernel expands the squared distance as ‖x‖² + ‖s‖² − 2⟨x, s⟩ (the inner products by one matrix
  product per run of 64 windows), keeps a running minimum over four runs, clamps it at zero and takes one square
  root per sample and shapelet.  On the extended reals, for finite inputs, the two are one function of the argument
  arrays:

  * the frames are the generated ones (the reference's is its generated run with the result dropped);
  * the idealization rewrote nothing, so there is nothing to preserve;
  * the kernel's result array is the kernel's form of the result (from the blocks the four grid points store), the
    reference's is the specification, and under the precondition the samples and the shapelets are finite, where
    the kernel's form is the specification.
-/
import proofs.«141194_j65755949302130_2_alg».proof.Defs
import proofs.«141194_j65755949302130_2_alg».proof.Proof.Gen.Kernel
import proofs.«141194_j65755949302130_2_alg».proof.Proof.Gen.Kernel.Skeleton
import proofs.«141194_j65755949302130_2_alg».proof.Proof.Gen.Kernel.Launch
import proofs.«141194_j65755949302130_2_alg».proof.Proof.Gen.Kernel.Points
import proofs.«141194_j65755949302130_2_alg».proof.Proof.Gen.Kernel.Frame
import proofs.«141194_j65755949302130_2_alg».proof.Proof.Gen.KernelIdeal
import proofs.«141194_j65755949302130_2_alg».proof.Proof.Gen.KernelIdeal.Skeleton
import proofs.«141194_j65755949302130_2_alg».proof.Proof.Gen.KernelIdeal.Launch
import proofs.«141194_j65755949302130_2_alg».proof.Proof.Gen.KernelIdeal.Points
import proofs.«141194_j65755949302130_2_alg».proof.Proof.Gen.KernelIdeal.Frame
import proofs.«141194_j65755949302130_2_alg».proof.Proof.Gen.ReferenceIdeal
import proofs.«141194_j65755949302130_2_alg».proof.Proof.Gen.Pre_finite_inputs
import proofs.«141194_j65755949302130_2_alg».proof.Proof.Gen.KernelIdeal.Value
import proofs.«141194_j65755949302130_2_alg».proof.Proof.Gen.ReferenceIdeal.Run
import proofs.«141194_j65755949302130_2_alg».proof.Proof.Gen.ReferenceIdeal.Read
import proofs.«141194_j65755949302130_2_alg».proof.Proof.KernelValue
import proofs.«141194_j65755949302130_2_alg».proof.Proof.RefValue
import proofs.«141194_j65755949302130_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's array is the kernel's form of the result,
    which on the finite samples and shapelets the precondition gives is the specification; the reference's array is
    the specification of the arrays it was given, which are the kernel's. -/
theorem algebraic : Cert.algebraic_KernelIdeal_ReferenceIdeal := by
  intro m ρ m' ρ' hpre hagree
  refine ⟨fun c => Cert.Shapelet.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.Shapelet.KernelValue.run m ρ)
    obtain ⟨hX, hS⟩ := Cert.Shapelet.Finite.finite_of_pre _ _ _ _ (hpre c)
    exact Cert.Shapelet.Spec.K_eq_G _ _ _ _ hX hS
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, Cert.Shapelet.RefValue.ref_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
